-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x64 : Shape := ⟨3, ![64, 1024, 64]⟩
abbrev S64x1024x1024 : Shape := ⟨3, ![64, 1024, 1024]⟩
abbrev S_ : Shape := ⟨0, ![]⟩

class Facts : Prop where
  bcast_S_S64x1024x64 : S_.BroadcastsInDim S64x1024x64 (![] : Fin 0 → Fin S64x1024x64.rank)
  reducesTo_S64x1024x64_S_d0_1_2 : S64x1024x64.ReducesTo [0, 1, 2] S_
  h_S_ : 0 < S_.numel
  bcast_S_S64x1024x1024 : S_.BroadcastsInDim S64x1024x1024 (![] : Fin 0 → Fin S64x1024x1024.rank)
  reducesTo_S64x1024x1024_S_d0_1_2 : S64x1024x1024.ReducesTo [0, 1, 2] S_

variable [Facts]

def fn_part1 {F : FTy → Type} [FloatOps F] (main_arg3 : IVec S64x1024x1024 32) (main_v13 : IVec S_ 1) (main_v15 : IVec S64x1024x1024 1) (main_c_5 : IVec S_ 32) : IVec S_ 1 :=
  let main_v16 : IVec S64x1024x1024 32 := broadcastInDim S64x1024x1024 ![] bcast_S_S64x1024x1024 main_c_5
  let main_v17 : IVec S64x1024x1024 1 := cmpi .eq main_arg3 main_v16
  let main_v18 : IVec S64x1024x1024 1 := ori main_v15 main_v17
  let main_c_6 : IVec S_ 1 := constantI S_ 1 1#1
  let main_v19 : IVec S_ 1 := (fun x v => Host.reduce IntOp.andi x v reducesTo_S64x1024x1024_S_d0_1_2 h_S_) main_v18 main_c_6
  let main_v20 : IVec S_ 1 := andi main_v13 main_v19
  main_v20

def fn {F : FTy → Type} [FloatOps F] (main_arg0 : FVec F S64x1024x64 .f32) (main_arg1 : FVec F S64x1024x64 .f32) (main_arg2 : FVec F S64x1024x64 .f32) (main_arg3 : IVec S64x1024x1024 32) : IVec S_ 1 :=
  let main_v0 : FVec F S64x1024x64 .f32 := Host.absf main_arg0
  let main_cst : FVec F S_ .f32 := constant S_ .f32 0x7F800000#32
  let main_v1 : FVec F S64x1024x64 .f32 := broadcastInDim S64x1024x64 ![] bcast_S_S64x1024x64 main_cst
  let main_v2 : IVec S64x1024x64 1 := cmpf .olt main_v0 main_v1
  let main_c : IVec S_ 1 := constantI S_ 1 1#1
  let main_v3 : IVec S_ 1 := (fun x v => Host.reduce IntOp.andi x v reducesTo_S64x1024x64_S_d0_1_2 h_S_) main_v2 main_c
  let main_v4 : FVec F S64x1024x64 .f32 := Host.absf main_arg1
  let main_cst_0 : FVec F S_ .f32 := constant S_ .f32 0x7F800000#32
  let main_v5 : FVec F S64x1024x64 .f32 := broadcastInDim S64x1024x64 ![] bcast_S_S64x1024x64 main_cst_0
  let main_v6 : IVec S64x1024x64 1 := cmpf .olt main_v4 main_v5
  let main_c_1 : IVec S_ 1 := constantI S_ 1 1#1
  let main_v7 : IVec S_ 1 := (fun x v => Host.reduce IntOp.andi x v reducesTo_S64x1024x64_S_d0_1_2 h_S_) main_v6 main_c_1
  let main_v8 : IVec S_ 1 := andi main_v3 main_v7
  let main_v9 : FVec F S64x1024x64 .f32 := Host.absf main_arg2
  let main_cst_2 : FVec F S_ .f32 := constant S_ .f32 0x7F800000#32
  let main_v10 : FVec F S64x1024x64 .f32 := broadcastInDim S64x1024x64 ![] bcast_S_S64x1024x64 main_cst_2
  let main_v11 : IVec S64x1024x64 1 := cmpf .olt main_v9 main_v10
  let main_c_3 : IVec S_ 1 := constantI S_ 1 1#1
  let main_v12 : IVec S_ 1 := (fun x v => Host.reduce IntOp.andi x v reducesTo_S64x1024x64_S_d0_1_2 h_S_) main_v11 main_c_3
  let main_v13 : IVec S_ 1 := andi main_v8 main_v12
  let main_c_4 : IVec S_ 32 := constantI S_ 32 0#32
  let main_v14 : IVec S64x1024x1024 32 := broadcastInDim S64x1024x1024 ![] bcast_S_S64x1024x1024 main_c_4
  let main_v15 : IVec S64x1024x1024 1 := cmpi .eq main_arg3 main_v14
  let main_c_5 : IVec S_ 32 := constantI S_ 32 1#32
  fn_part1 (F := F) main_arg3 main_v13 main_v15 main_c_5
-- ==== Kernel.lean ====
abbrev S64x1024x64 : Shape := ⟨3, ![64, 1024, 64]⟩
abbrev S64x1024x1024 : Shape := ⟨3, ![64, 1024, 1024]⟩
abbrev S1x512x64 : Shape := ⟨3, ![1, 512, 64]⟩
abbrev S1x1024x64 : Shape := ⟨3, ![1, 1024, 64]⟩
abbrev S1x512x1024 : Shape := ⟨3, ![1, 512, 1024]⟩
abbrev S512x64 : Shape := ⟨2, ![512, 64]⟩
abbrev S1024x64 : Shape := ⟨2, ![1024, 64]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S64x1024x64, .f32⟩
  | .hbm, ⟨1, _⟩ => ⟨S64x1024x64, .f32⟩
  | .hbm, ⟨2, _⟩ => ⟨S64x1024x64, .f32⟩
  | .hbm, ⟨3, _⟩ => ⟨S64x1024x1024, .i32⟩
  | .hbm, ⟨4, _⟩ => ⟨S64x1024x64, .f32⟩
  | .hbm, ⟨5, _⟩ => ⟨S64x1024x1024, .f32⟩
  | .local _ .vmem, ⟨0, _⟩ => ⟨S1x512x64, .f32⟩
  | .local _ .vmem, ⟨1, _⟩ => ⟨S1x512x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x64, .f32⟩
  | .local _ .vmem, ⟨5, _⟩ => ⟨S1x1024x64, .f32⟩
  | .local _ .vmem, ⟨6, _⟩ => ⟨S1x512x1024, .i32⟩
  | .local _ .vmem, ⟨7, _⟩ => ⟨S1x512x1024, .i32⟩
  | .local _ .vmem, ⟨8, _⟩ => ⟨S1x512x64, .f32⟩
  | .local _ .vmem, ⟨9, _⟩ => ⟨S1x512x64, .f32⟩
  | .local _ .vmem, ⟨10, _⟩ => ⟨S1x512x1024, .f32⟩
  | .local _ .vmem, ⟨11, _⟩ => ⟨S1x512x1024, .f32⟩
  | _, _ => ⟨S64x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x1024_S512 : S512x1024.Reduces [1] S512
  shapeCasts_S512_S512x1 : S512.ShapeCasts S512x1
  broadcasts_S512x1_S512x1024 : S512x1.Broadcasts S512x1024
  shapeCasts_S512x1024_S1x512x1024 : S512x1024.ShapeCasts S1x512x1024
  broadcasts_S512x1_S512x64 : S512x1.Broadcasts S512x64
  shapeCasts_S512x64_S1x512x64 : S512x64.ShapeCasts S1x512x64
  dot_S512x64_S1024x64_S512x1024_1_1_0_0_n_n_wf : DotDims.WF S512x64 S1024x64 S512x1024 [1] [1] [0] [0] [] []
  dot_S512x1024_S1024x64_S512x64_1_0_0_1_n_n_wf : DotDims.WF S512x1024 S1024x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S64x1024x64.size a
  hwx0_0 : ∀ i : grid0.Coords, EltTy.bits .f32 = 32 ∨ (Rect.block (s := S64x1024x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S64x1024x64.size a
  hwx0_1 : ∀ i : grid0.Coords, EltTy.bits .f32 = 32 ∨ (Rect.block (s := S64x1024x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S64x1024x64.size a
  hwx0_2 : ∀ i : grid0.Coords, EltTy.bits .f32 = 32 ∨ (Rect.block (s := S64x1024x64) S1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S64x1024x1024.size a
  hwx0_3 : ∀ i : grid0.Coords, EltTy.bits .i32 = 32 ∨ (Rect.block (s := S64x1024x1024) S1x512x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S64x1024x64.size a
  hwx0_4 : ∀ i : grid0.Coords, EltTy.bits .f32 = 32 ∨ (Rect.block (s := S64x1024x64) S1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S64x1024x1024.size a
  hwx0_5 : ∀ i : grid0.Coords, EltTy.bits .f32 = 32 ∨ (Rect.block (s := S64x1024x1024) S1x512x1024.size (cc0_transform_5 i) (hinb0_5 i)).WholeWords (EltTy.packing .f32)

variable [Facts₀]

def dot_S512x64_S1024x64_S512x1024_1_1_0_0_n_n : DotDims S512x64 S1024x64 S512x1024 where
  lhsContracting := [1]
  rhsContracting := [1]
  lhsNonContracting := [0]
  rhsNonContracting := [0]
  lhsBatch := []
  rhsBatch := []
  wf := dot_S512x64_S1024x64_S512x1024_1_1_0_0_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x1024x64 : Shape := ⟨3, ![64, 1024, 64]⟩
abbrev S64x1024x1024 : Shape := ⟨3, ![64, 1024, 1024]⟩
abbrev S_ : Shape := ⟨0, ![]⟩
abbrev S64x1024 : Shape := ⟨2, ![64, 1024]⟩
abbrev S64x1024x1 : Shape := ⟨3, ![64, 1024, 1]⟩

abbrev nBuf : Space → Nat
  | .hbm => 32
  | .vmem => 0
  | .smem => 0
  | _ => 0

abbrev bufTy : (tb : Table) → Fin (tcTables nBuf tb) → BufTy
  | .hbm, ⟨0, _⟩ => ⟨S64x1024x64, .f32⟩
  | .hbm, ⟨1, _⟩ => ⟨S64x1024x64, .f32⟩
  | .hbm, ⟨2, _⟩ => ⟨S64x1024x64, .f32⟩
  | .hbm, ⟨3, _⟩ => ⟨S64x1024x1024, .i32⟩
  | .hbm, ⟨4, _⟩ => ⟨S_, .f32⟩
  | .hbm, ⟨5, _⟩ => ⟨S_, .f32⟩
  | .hbm, ⟨6, _⟩ => ⟨S64x1024x1024, .f32⟩
  | .hbm, ⟨7, _⟩ => ⟨S64x1024x1024, .f32⟩
  | .hbm, ⟨8, _⟩ => ⟨S64x1024x1024, .f32⟩
  | .hbm, ⟨9, _⟩ => ⟨S64x1024x1024, .f32⟩
  | .hbm, ⟨10, _⟩ => ⟨S_, .f32⟩
  | .hbm, ⟨11, _⟩ => ⟨S64x1024x1024, .f32⟩
  | .hbm, ⟨12, _⟩ => ⟨S64x1024x1024, .f32⟩
  | .hbm, ⟨13, _⟩ => ⟨S_, .f32⟩
  | .hbm, ⟨14, _⟩ => ⟨S64x1024x1024, .f32⟩
  | .hbm, ⟨15, _⟩ => ⟨S64x1024x1024, .f32⟩
  | .hbm, ⟨16, _⟩ => ⟨S64x1024x1024, .f32⟩
  | .hbm, ⟨17, _⟩ => ⟨S_, .f32⟩
  | .hbm, ⟨18, _⟩ => ⟨S64x1024, .f32⟩
  | .hbm, ⟨19, _⟩ => ⟨S_, .f32⟩
  | .hbm, ⟨20, _⟩ => ⟨S64x1024, .f32⟩
  | .hbm, ⟨21, _⟩ => ⟨S64x1024, .f32⟩
  | .hbm, ⟨22, _⟩ => ⟨S64x1024x1, .f32⟩
  | .hbm, ⟨23, _⟩ => ⟨S64x1024x1024, .f32⟩
  | .hbm, ⟨24, _⟩ => ⟨S64x1024x1024, .f32⟩
  | .hbm, ⟨25, _⟩ => ⟨S64x1024x1024, .f32⟩
  | .hbm, ⟨26, _⟩ => ⟨S_, .f32⟩
  | .hbm, ⟨27, _⟩ => ⟨S64x1024, .f32⟩
  | .hbm, ⟨28, _⟩ => ⟨S64x1024x1, .f32⟩
  | .hbm, ⟨29, _⟩ => ⟨S64x1024x1024, .f32⟩
  | .hbm, ⟨30, _⟩ => ⟨S64x1024x1024, .f32⟩
  | .hbm, ⟨31, _⟩ => ⟨S64x1024x64, .f32⟩
  | _, _ => ⟨S64x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S_S64x1024x1024 : S_.BroadcastsInDim S64x1024x1024 (![] : Fin 0 → Fin S64x1024x1024.rank)
  reducesTo_S64x1024x1024_S64x1024_d2 : S64x1024x1024.ReducesTo [2] S64x1024
  h_S_ : 0 < S_.numel
  bcast_S_S64x1024 : S_.BroadcastsInDim S64x1024 (![] : Fin 0 → Fin S64x1024.rank)
  bcast_S64x1024_S64x1024x1_0_1 : S64x1024.BroadcastsInDim S64x1024x1 (![0, 1] : Fin 2 → Fin S64x1024x1.rank)
  bcast_S64x1024x1_S64x1024x1024_0_1_2 : S64x1024x1.BroadcastsInDim S64x1024x1024 (![0, 1, 2] : Fin 3 → Fin S64x1024x1024.rank)
  dot_S64x1024x64_S64x1024x64_S64x1024x1024_2_2_1_1_0_0_wf : DotDims.WF S64x1024x64 S64x1024x64 S64x1024x1024 [2] [2] [1] [1] [0] [0]
  dot_S64x1024x1024_S64x1024x64_S64x1024x64_2_1_1_2_0_0_wf : DotDims.WF S64x1024x1024 S64x1024x64 S64x1024x64 [2] [1] [1] [2] [0] [0]

variable [Facts₀]

def dot_S64x1024x64_S64x1024x64_S64x1024x1024_2_2_1_1_0_0 : DotDims S64x1024x64 S64x1024x64 S64x1024x1024 where
  lhsContracting := [2]
  rhsContracting := [2]
  lhsNonContracting := [1]
  rhsNonContracting := [1]
  lhsBatch := [0]
  rhsBatch := [0]
  wf := dot_S64x1024x64_S64x1024x64_S64x1024x1024_2_2_1_1_0_0_wf
def dot_S64x1024x1024_S64x1024x64_S64x1024x64_2_1_1_2_0_0 : DotDims S64x1024x1024 S64x1024x64 S64x1024x64 where
  lhsContracting := [2]
  rhsContracting := [1]
  lhsNonContracting := [1]
  rhsNonContracting := [2]
  lhsBatch := [0]
  rhsBatch := [0]
  wf := dot_S64x1024x1024_S64x1024x64_S64x1024x64_2_1_1_2_0_0_wf

class Facts : Prop extends Facts₀ where

variable [Facts]
-- ==== Proof.Softmax.lean ====
/-
  A softmax row on the extended reals, and the two laws that join its two spellings.

  For a row of scores `σ : Fin n → EReal` the row's largest entry is taken from −∞, every entry is shifted by it
  and exponentiated, and the exponentials are summed. One spelling then scales by the reciprocal of the sum — the
  normalized weights `e c · (1 / D)`, and the weighted combination of the rows of a matrix `W` formed first and scaled after,
  `(∑ c, e c · W c j) · (1 / D)`. The other divides first: `e c / D`, and `∑ c, (e c / D) · W c j`. On real scores and
  a real matrix the two agree: the largest entry is real, every exponential is a positive real, their sum is a
  positive real, and then the law is distributivity of the product over a finite sum of reals.
-/
import Idealize.ShloMosaic.PureOps.Ideal
import Idealize.ShloMosaic.PureOps.Ideal.Laws

noncomputable section

namespace Cert.Softmax

open Idealize.ShloMosaic

variable {n : Nat}

/-- The row's largest entry, from −∞. -/
def rowMax (σ : Fin n → EReal) : EReal := (Finset.univ : Finset (Fin n)).fold max ⊥ σ

/-- An entry shifted by the row's largest and exponentiated. -/
def rowExp (σ : Fin n → EReal) (c : Fin n) : EReal := Ideal.exp (σ c - rowMax σ)

/-- The sum of the row's exponentials. -/
def rowDen (σ : Fin n → EReal) : EReal := ∑ c, rowExp σ c

/-- A normalized weight: the exponential times the reciprocal of the sum. -/
def attnRow (σ : Fin n → EReal) (c : Fin n) : EReal := rowExp σ c * Ideal.div 1 (rowDen σ)

/-- The combination of the rows of `W` weighted by the exponentials, scaled by the reciprocal of the sum afterwards. -/
def outRow {d : Nat} (σ : Fin n → EReal) (W : Fin n → Fin d → EReal) (j : Fin d) : EReal :=
  (∑ c, rowExp σ c * W c j) * Ideal.div 1 (rowDen σ)

/-- The cast of a finite sum of reals is the sum of the casts. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many reals, from −∞, over a nonempty set, is a real. -/
theorem fold_max_real {ι : Type*} (f : ι → ℝ) (s : Finset ι) (hs : s.Nonempty) :
    ∃ x : ℝ, s.fold max (⊥ : EReal) (fun c => (f c : EReal)) = (x : EReal) := by
  classical
  induction s using Finset.induction_on with
  | empty => exact absurd hs (by simp)
  | insert a s ha ih =>
    rw [Finset.fold_insert ha]
    rcases s.eq_empty_or_nonempty with rfl | hne
    · exact ⟨f a, by rw [Finset.fold_empty]; exact max_eq_left bot_le⟩
    · obtain ⟨x, hx⟩ := ih hne
      exact ⟨max (f a) x, by rw [hx]; exact (EReal.coe_strictMono.monotone.map_max).symm⟩

section real

variable (σ : Fin n → EReal) (hσ : ∀ c, ∃ x : ℝ, σ c = (x : EReal)) (hn : 0 < n)
include hσ hn

/-- On real scores the row's largest entry is a real. -/
theorem rowMax_real : ∃ M : ℝ, rowMax σ = (M : EReal) := by
  choose f hf using hσ
  have : σ = fun c => (f c : EReal) := funext hf
  rw [rowMax, this]
  exact fold_max_real f _ ⟨⟨0, hn⟩, Finset.mem_univ _⟩

/-- On real scores every shifted exponential is a positive real. -/
theorem rowExp_real : ∃ e : Fin n → ℝ, (∀ c, 0 < e c) ∧ ∀ c, rowExp σ c = (e c : EReal) := by
  obtain ⟨M, hM⟩ := rowMax_real σ hσ hn
  choose f hf using hσ
  refine ⟨fun c => Real.exp (f c - M), fun c => Real.exp_pos _, fun c => ?_⟩
  rw [rowExp, hM, hf c, ← EReal.coe_sub, Ideal.exp_coe]

/-- On real scores the sum of the exponentials is a positive real. -/
theorem rowDen_real : ∃ D : ℝ, 0 < D ∧ rowDen σ = (D : EReal) := by
  obtain ⟨e, hpos, he⟩ := rowExp_real σ hσ hn
  refine ⟨∑ c, e c, Finset.sum_pos (fun c _ => hpos c) ⟨⟨0, hn⟩, Finset.mem_univ _⟩, ?_⟩
  rw [rowDen, coe_sum]
  exact Finset.sum_congr rfl fun c _ => he c

/-- Scaling by the reciprocal of the sum is dividing by the sum. -/
theorem attnRow_eq_div (c : Fin n) : attnRow σ c = Ideal.div (rowExp σ c) (rowDen σ) := by
  obtain ⟨D, hD, hDe⟩ := rowDen_real σ hσ hn
  have hne : (D : EReal) ≠ 0 := by exact_mod_cast hD.ne'
  rw [attnRow, hDe, Ideal.div, Ideal.div, if_neg hne, if_neg hne, one_mul]

/-- The weighted combination scaled afterwards is the combination of the weights divided first: distributivity over
    a finite sum of reals. -/
theorem outRow_eq_sum_div {d : Nat} (W : Fin n → Fin d → EReal) (hW : ∀ c j, ∃ x : ℝ, W c j = (x : EReal)) (j : Fin d) :
    outRow σ W j = ∑ c, Ideal.div (rowExp σ c) (rowDen σ) * W c j := by
  obtain ⟨D, hD, hDe⟩ := rowDen_real σ hσ hn
  obtain ⟨e, -, he⟩ := rowExp_real σ hσ hn
  choose w hw using hW
  have hne : (D : EReal) ≠ 0 := by exact_mod_cast hD.ne'
  have hinv : ((D : EReal))⁻¹ = ((D⁻¹ : ℝ) : EReal) := (EReal.coe_inv D).symm
  rw [outRow, hDe, Ideal.div, if_neg hne, one_mul, hinv]
  have hl : (∑ c, rowExp σ c * W c j) = ((∑ c, e c * w c j : ℝ) : EReal) := by
    rw [coe_sum]; exact Finset.sum_congr rfl fun c _ => by rw [he c, hw c j, EReal.coe_mul]
  have hr : (∑ c, Ideal.div (rowExp σ c) (D : EReal) * W c j) = ((∑ c, e c * D⁻¹ * w c j : ℝ) : EReal) := by
    rw [coe_sum]; exact Finset.sum_congr rfl fun c _ => by
      rw [he c, hw c j, Ideal.div, if_neg hne, hinv, EReal.coe_mul, EReal.coe_mul]
  rw [hl, hr, ← EReal.coe_mul, Finset.sum_mul]
  exact congrArg _ (Finset.sum_congr rfl fun c _ => by ring)

end real

end Cert.Softmax

end
-- ==== Proof.Consts.lean ====
/-
  The float literals the two programs carry, as the extended reals they denote, and the masked, scaled score in its two
  spellings: chosen by comparing the mask entry with zero, or formed by adding −10⁹ times one minus the entry.
-/
import Idealize.ShloMosaic.PureOps.Ideal
import Idealize.ShloMosaic.PureOps.Ideal.Laws
import Idealize.ShloMosaic.Lib.ValueIdx
import Idealize.ShloMosaic.Lib.Affine

noncomputable section

namespace Cert.Consts

open Idealize.ShloMosaic

/-- `0.125` denotes the real 1/8. -/
theorem ofBits_eighth : Ideal.ofBits .f32 0x3E000000#32 = (((1 / 8 : ℝ)) : EReal) := by
  simp [Ideal.ofBits, Ideal.ieee, -EReal.coe_mul]; norm_num

/-- `64.0` denotes the real 64. -/
theorem ofBits_64 : Ideal.ofBits .f32 0x42800000#32 = ((64 : ℝ) : EReal) := by
  simp [Ideal.ofBits, Ideal.ieee, -EReal.coe_mul]; norm_num

/-- `1.0` denotes 1. -/
theorem ofBits_one : Ideal.ofBits .f32 0x3F800000#32 = ((1 : ℝ) : EReal) := by
  simp [Ideal.ofBits, Ideal.ieee, -EReal.coe_mul]; norm_num

/-- `1e9` denotes the real 10⁹. -/
theorem ofBits_big : Ideal.ofBits .f32 0x4E6E6B28#32 = ((1000000000 : ℝ) : EReal) := by
  simp [Ideal.ofBits, Ideal.ieee, -EReal.coe_mul]; norm_num

/-- `-1e9` denotes the real −10⁹. -/
theorem ofBits_negbig : Ideal.ofBits .f32 0xCE6E6B28#32 = ((-1000000000 : ℝ) : EReal) := by
  simp [Ideal.ofBits, Ideal.ieee, -EReal.coe_mul]; norm_num

/-- The all-ones-exponent negative pattern denotes −∞. -/
theorem ofBits_neginf : Ideal.ofBits .f32 0xFF800000#32 = (⊥ : EReal) := by
  simp [Ideal.ofBits, Ideal.ieee]

/-- The square root of 64 is 8. -/
theorem sqrt_64 : Ideal.sqrt ((64 : ℝ) : EReal) = ((8 : ℝ) : EReal) := by
  rw [Ideal.sqrt_coe, if_neg (by norm_num)]
  congr 1
  rw [show (64 : ℝ) = 8 * 8 by norm_num]
  exact Real.sqrt_mul_self (by norm_num)

/-! ## The masked score in its two spellings -/

/-- On a mask entry that is 0 or 1, choosing between the scaled score less 10⁹ (entry 0) and the scaled score (entry 1)
    is the quotient of the score by √64 plus −10⁹ times one minus the entry: 1/8 is the reciprocal of √64 = 8, and the added
    term is −10⁹ at entry 0 and 0 at entry 1. No finiteness is used. -/
theorem score_eq (s : EReal) (mk : BitVec 32) (hmk : mk = 0#32 ∨ mk = 1#32) :
    Scalar.select (IntOp.cmpi .eq mk 0#32) (s * Ideal.ofBits .f32 0x3E000000#32 - Ideal.ofBits .f32 0x4E6E6B28#32)
        (s * Ideal.ofBits .f32 0x3E000000#32)
      = Ideal.div s (Ideal.sqrt (Ideal.ofBits .f32 0x42800000#32))
        + Ideal.ofBits .f32 0xCE6E6B28#32 * (Ideal.ofBits .f32 0x3F800000#32 - ((mk.toInt : ℝ) : EReal)) := by
  rw [ofBits_64, sqrt_64, Ideal.div_coe (by norm_num : (8 : ℝ) ≠ 0), ofBits_eighth, ofBits_big, ofBits_negbig, ofBits_one]
  rcases hmk with rfl | rfl
  · have h1 : IntOp.cmpi .eq (0#32) (0#32) = 1#1 := IntOp.cmpi_eq.mpr rfl
    rw [h1, ValueIdx.select_one]
    have h0 : (((0#32 : BitVec 32).toInt : ℝ) : EReal) = 0 := by norm_num
    rw [h0, sub_zero, EReal.coe_one, mul_one, EReal.coe_neg, sub_eq_add_neg]
  · have h1 : IntOp.cmpi .eq (1#32) (0#32) = 0#1 := by decide
    rw [h1, ValueIdx.select_zero]
    have h0 : (((1#32 : BitVec 32).toInt : ℝ) : EReal) = ((1 : ℝ) : EReal) := by norm_num
    rw [h0, ← EReal.coe_sub, sub_self, EReal.coe_zero, mul_zero, add_zero]

end Cert.Consts

end
-- ==== Proof.LibColumnCast.lean ====
/-
  A shape cast that appends a unit axis, read at an index.

  Casting a vector of length `a` to an `a × 1` column keeps row-major positions: position `i` of the vector is
  position `i * 1 + 0` of the column. So the column at `(i, u)` — `u` the only coordinate of the unit axis — is
  the vector at `i`. The same holds for casting a `1 × 1` matrix to a vector of length one.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1]` array cast to `[1]` reads, at its one index, the operand at `(0, 0)`. -/
theorem shapeCast_11_1_apply (x : (⟨2, ![1, 1]⟩ : Shape).Idx → α) (h : (⟨2, ![1, 1]⟩ : Shape).ShapeCasts ⟨1, ![1]⟩)
    (u : Fin 1) : shapeCast ⟨1, ![1]⟩ x h (ix1 u) = x (ix2 (0 : Fin 1) (0 : Fin 1)) :=
  shapeCast_apply x h _ _ (by
    have hu : u.val = 0 := by omega
    rw [Shape.rowMajor_val_two, Shape.rowMajor_val_one]
    show 0 * 1 + 0 = u.val
    rw [hu])

end Cert.LibColumnCast
-- ==== Proof.LibColumnBroadcast.lean ====
/-
  One column broadcast over many.

  An `a × 1` column broadcast to `a × b` repeats, along each row, that row's one entry: the result at `(p, c)` is
  the column at `(p, 0)`, whatever the column coordinate `c`. (The companion of the row form, where a `1 × b` row
  is repeated down the rows.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.KernelRow.lean ====
/-
  One block of the kernel, row by row.

  A grid point works on 512 query rows of one batch against all 1024 key rows and value rows of that batch. Its body forms
  the 512 × 1024 inner products over the 64 features, scales them by 1/8, subtracts 10⁹ where the mask entry is zero, takes
  each row's largest entry, exponentiates the shifted row, sums it, and scales both the exponentials and their product with
  the value rows by the reciprocal of the sum. Read at a row `p` this is the softmax row of the row's scores: the two
  stored blocks at `(p, c)` and `(p, d)` are the normalized weight and the weighted combination of value rows.
-/
import proofs.«142794_j50843822850611_2_alg».proof.Proof.Gen.KernelIdeal.Value
import proofs.«142794_j50843822850611_2_alg».proof.Proof.Softmax
import proofs.«142794_j50843822850611_2_alg».proof.Proof.Consts
import proofs.«142794_j50843822850611_2_alg».proof.Proof.LibColumnCast
import proofs.«142794_j50843822850611_2_alg».proof.Proof.LibColumnBroadcast
import Idealize.ShloMosaic.Lib.ValueIdx
import Idealize.ShloMosaic.Lib.ValueLayout
import Idealize.ShloMosaic.Lib.Pipeline.Value
import Idealize.ShloMosaic.PureOps.Ideal.Laws

noncomputable section

namespace Cert.KernelRow

open Cert.KernelIdeal Cert.KernelIdeal.Gen Idealize.ShloMosaic Idealize.ShloMosaic.ValueIdx Cert.Softmax

/-- The inner product of query row `p` of a block with key row `c`. -/
def blkDot (P0 : Vec Ideal S1x512x64 .f32) (P1 : Vec Ideal S1x1024x64 .f32) (p : Fin 512) (c : Fin 1024) : EReal :=
  ∑ d : Fin 64, P0 (ix3 (0 : Fin 1) p d) * P1 (ix3 (0 : Fin 1) c d)

/-- The scores of row `p` of a block: the inner product of query row `p` with key row `c`, times 1/8, less 10⁹ where the
    block's mask entry `(p, c)` is zero. -/
def blkScore (P0 : Vec Ideal S1x512x64 .f32) (P1 : Vec Ideal S1x1024x64 .f32) (P3 : Vec Ideal S1x512x1024 .i32)
    (p : Fin 512) : Fin 1024 → EReal := fun c =>
  Scalar.select (IntOp.cmpi .eq (P3 (ix3 (0 : Fin 1) p c) : BitVec 32) 0#32)
    (blkDot P0 P1 p c * Ideal.ofBits .f32 0x3E000000#32 - Ideal.ofBits .f32 0x4E6E6B28#32)
    (blkDot P0 P1 p c * Ideal.ofBits .f32 0x3E000000#32)

/-- The block's scaled inner products, as the body forms them. -/
def scaled (P0 : Vec Ideal S1x512x64 .f32) (P1 : Vec Ideal S1x1024x64 .f32) : FVec Ideal S512x1024 .f32 :=
  have v1 : FVec Ideal S512x64 .f32 := shapeCast S512x64 P0 shapeCasts_S1x512x64_S512x64
  have v3 : FVec Ideal S1024x64 .f32 := shapeCast S1024x64 P1 shapeCasts_S1x1024x64_S1024x64
  have cst : FVec Ideal S512x1024 .f32 := constant S512x1024 .f32 0x00000000#32
  have v6 : FVec Ideal S512x1024 .f32 := matmul dot_S512x64_S1024x64_S512x1024_1_1_0_0_n_n none v1 v3 cst
  have cst_8 : Ideal .f32 := Scalar.ofBits .f32 0x3E000000#32
  have v7 : FVec Ideal S512x1024 .f32 := broadcast S512x1024 cst_8
  mulf v6 v7

/-- The block's masked scores, as the body forms them. -/
def masked (P0 : Vec Ideal S1x512x64 .f32) (P1 : Vec Ideal S1x1024x64 .f32) (P3 : Vec Ideal S1x512x1024 .i32) :
    FVec Ideal S512x1024 .f32 :=
  have v8 : FVec Ideal S512x1024 .f32 := scaled P0 P1
  have v10 : IVec S512x1024 32 := shapeCast S512x1024 P3 shapeCasts_S1x512x1024_S512x1024
  have v11 : IVec S512x1024 32 := broadcast S512x1024 0#32
  have v12 : IVec S512x1024 1 := cmpi .eq v10 v11
  have cst_12 : Ideal .f32 := Scalar.ofBits .f32 0x4E6E6B28#32
  have v13 : FVec Ideal S512x1024 .f32 := broadcast S512x1024 cst_12
  have v14 : FVec Ideal S512x1024 .f32 := subf v8 v13
  select v12 v14 v8

/-- The body's exponentials are the masked scores shifted by their row's largest entry, exponentiated. -/
theorem pay2_eq (P0 : Vec Ideal S1x512x64 .f32) (P1 : Vec Ideal S1x1024x64 .f32) (P3 : Vec Ideal S1x512x1024 .i32) :
    k0_pay2 P0 P1 P3 = exp (subf (masked P0 P1 P3) (broadcastTo S512x1024 (shapeCast S512x1
      (multiReduction .maximumf [1] S512 (masked P0 P1 P3) 0xFF800000#32 reduces_S512x1024_S512 (.inl rfl) rfl)
      shapeCasts_S512_S512x1) broadcasts_S512x1_S512x1024)) := rfl

/-- Coordinates of the two products' operand indices on their kept axes. -/
theorem d1_lhs0 (i : S512x1024.Idx) (q : dot_S512x64_S1024x64_S512x1024_1_1_0_0_n_n.contr.Idx) : (dot_S512x64_S1024x64_S512x1024_1_1_0_0_n_n.lhsIdx i q 0).val = (i 0).val := by
  unfold DotDims.lhsIdx
  rw [dif_neg (show ¬(0 : Fin S512x64.rank) ∈ dot_S512x64_S1024x64_S512x1024_1_1_0_0_n_n.lhsBatch by decide),
    dif_pos (show (0 : Fin S512x64.rank) ∈ dot_S512x64_S1024x64_S512x1024_1_1_0_0_n_n.lhsNonContracting by decide)]
  rfl
theorem d1_rhs0 (i : S512x1024.Idx) (q : dot_S512x64_S1024x64_S512x1024_1_1_0_0_n_n.contr.Idx) : (dot_S512x64_S1024x64_S512x1024_1_1_0_0_n_n.rhsIdx i q 0).val = (i 1).val := by
  unfold DotDims.rhsIdx
  rw [dif_neg (show ¬(0 : Fin S1024x64.rank) ∈ dot_S512x64_S1024x64_S512x1024_1_1_0_0_n_n.rhsBatch by decide),
    dif_pos (show (0 : Fin S1024x64.rank) ∈ dot_S512x64_S1024x64_S512x1024_1_1_0_0_n_n.rhsNonContracting by decide)]
  rfl
theorem d2_lhs0 (i : S512x64.Idx) (q : dot_S512x1024_S1024x64_S512x64_1_0_0_1_n_n.contr.Idx) : (dot_S512x1024_S1024x64_S512x64_1_0_0_1_n_n.lhsIdx i q 0).val = (i 0).val := by
  unfold DotDims.lhsIdx
  rw [dif_neg (show ¬(0 : Fin S512x1024.rank) ∈ dot_S512x1024_S1024x64_S512x64_1_0_0_1_n_n.lhsBatch by decide),
    dif_pos (show (0 : Fin S512x1024.rank) ∈ dot_S512x1024_S1024x64_S512x64_1_0_0_1_n_n.lhsNonContracting by decide)]
  rfl
theorem d2_rhs1 (i : S512x64.Idx) (q : dot_S512x1024_S1024x64_S512x64_1_0_0_1_n_n.contr.Idx) : (dot_S512x1024_S1024x64_S512x64_1_0_0_1_n_n.rhsIdx i q 1).val = (i 1).val := by
  unfold DotDims.rhsIdx
  rw [dif_neg (show ¬(1 : Fin S1024x64.rank) ∈ dot_S512x1024_S1024x64_S512x64_1_0_0_1_n_n.rhsBatch by decide),
    dif_pos (show (1 : Fin S1024x64.rank) ∈ dot_S512x1024_S1024x64_S512x64_1_0_0_1_n_n.rhsNonContracting by decide)]
  rfl

/-- The first product at `(p, c)`, scaled: the inner product over the 64 features of query row `p` with key row `c`, times 1/8. -/
theorem scaled_apply (P0 : Vec Ideal S1x512x64 .f32) (P1 : Vec Ideal S1x1024x64 .f32) (p : Fin 512) (c : Fin 1024) :
    scaled P0 P1 (ix2 p c) = blkDot P0 P1 p c * Ideal.ofBits .f32 0x3E000000#32 := by
  show FloatOps.matmul dot_S512x64_S1024x64_S512x1024_1_1_0_0_n_n none (shapeCast S512x64 P0 shapeCasts_S1x512x64_S512x64 : FVec Ideal S512x64 .f32)
      (shapeCast S1024x64 P1 shapeCasts_S1x1024x64_S1024x64 : FVec Ideal S1024x64 .f32) (constant S512x1024 .f32 0x00000000#32) (ix2 p c)
      * Ideal.ofBits .f32 0x3E000000#32 = _
  rw [Ideal.matmul_constant_zero_apply, ← Equiv.sum_comp (contrEquiv1 dot_S512x64_S1024x64_S512x1024_1_1_0_0_n_n 64 rfl rfl).symm]
  refine congrArg (· * _) (Finset.sum_congr rfl fun k _ => ?_)
  have hk := contrEquiv1_symm_val dot_S512x64_S1024x64_S512x1024_1_1_0_0_n_n 64 rfl rfl k
  have el : dot_S512x64_S1024x64_S512x1024_1_1_0_0_n_n.lhsIdx (ix2 p c) ((contrEquiv1 dot_S512x64_S1024x64_S512x1024_1_1_0_0_n_n 64 rfl rfl).symm k) = ix2 p k :=
    funext fun a => Fin.ext (by
      match a with
      | ⟨0, _⟩ => exact d1_lhs0 _ _
      | ⟨1, _⟩ => exact (dot_S512x64_S1024x64_S512x1024_1_1_0_0_n_n.lhsIdx_val_of_single rfl _ _).trans hk)
  have er : dot_S512x64_S1024x64_S512x1024_1_1_0_0_n_n.rhsIdx (ix2 p c) ((contrEquiv1 dot_S512x64_S1024x64_S512x1024_1_1_0_0_n_n 64 rfl rfl).symm k) = ix2 c k :=
    funext fun a => Fin.ext (by
      match a with
      | ⟨0, _⟩ => exact d1_rhs0 _ _
      | ⟨1, _⟩ => exact (dot_S512x64_S1024x64_S512x1024_1_1_0_0_n_n.rhsIdx_val_of_single rfl _ _).trans hk)
  rw [el, er]
  exact congrArg₂ (· * ·) (shapeCast_1ab_ab_apply P0 _ p k) (shapeCast_1ab_ab_apply P1 _ c k)

/-- The masked scores at `(p, c)` are the row's scores at `c`. -/
theorem masked_apply (P0 : Vec Ideal S1x512x64 .f32) (P1 : Vec Ideal S1x1024x64 .f32) (P3 : Vec Ideal S1x512x1024 .i32)
    (p : Fin 512) (c : Fin 1024) : masked P0 P1 P3 (ix2 p c) = blkScore P0 P1 P3 p c := by
  show Scalar.select (IntOp.cmpi .eq ((shapeCast S512x1024 P3 shapeCasts_S1x512x1024_S512x1024 : IVec S512x1024 32) (ix2 p c)) 0#32)
      (scaled P0 P1 (ix2 p c) - Ideal.ofBits .f32 0x4E6E6B28#32) (scaled P0 P1 (ix2 p c)) = _
  rw [scaled_apply, shapeCast_1ab_ab_apply P3 _ p c]
  rfl

/-- A row's largest entry, as the lane reduction from −∞ takes it. -/
theorem rowMax_apply (X : FVec Ideal S512x1024 .f32) (h : S512x1024.Reduces [1] S512) (hφ : FKind.Formats .f32)
    (hacc : (0xFF800000#32 : BitVec 32) = 0xFF800000#32) (p : Fin 512) :
    multiReduction .maximumf [1] S512 X 0xFF800000#32 h hφ hacc (ix1 p)
      = (Finset.univ : Finset (Fin 1024)).fold max ⊥ (fun c => X (ix2 p c)) := by
  refine (Ideal.multiReduction_maximumf_single X 0xFF800000#32 h hφ hacc (ix1 p)).trans ?_
  show (Finset.univ : Finset (Fin 1024)).fold max (Ideal.ofBits .f32 0xFF800000#32) (X ∘ h.lift (ix1 p)) = _
  rw [Cert.Consts.ofBits_neginf]
  refine congrArg (fun f => (Finset.univ : Finset (Fin 1024)).fold max ⊥ f) (funext fun c => congrArg X (funext fun a => Fin.ext ?_))
  match a with
  | ⟨0, _⟩ => rfl
  | ⟨1, _⟩ => rfl

/-- A row's sum, as the lane reduction from zero takes it. -/
theorem rowSum_apply (X : FVec Ideal S512x1024 .f32) (h : S512x1024.Reduces [1] S512) (hφ : FKind.Formats .f32)
    (hacc : (0x00000000#32 : BitVec 32) = 0x00000000#32) (p : Fin 512) :
    multiReduction .add [1] S512 X 0x00000000#32 h hφ hacc (ix1 p) = ∑ c : Fin 1024, X (ix2 p c) := by
  refine (Ideal.multiReduction_add_single X 0x00000000#32 h hφ hacc (ix1 p)).trans ?_
  refine Finset.sum_congr rfl fun c _ => congrArg X (funext fun a => Fin.ext ?_)
  match a with
  | ⟨0, _⟩ => rfl
  | ⟨1, _⟩ => rfl

/-- The body's exponentials at `(p, c)`: the row's shifted exponential at `c`. -/
theorem pay2_apply (P0 : Vec Ideal S1x512x64 .f32) (P1 : Vec Ideal S1x1024x64 .f32) (P3 : Vec Ideal S1x512x1024 .i32)
    (p : Fin 512) (c : Fin 1024) : k0_pay2 P0 P1 P3 (ix2 p c) = rowExp (blkScore P0 P1 P3 p) c := by
  have hm : broadcastTo S512x1024 (shapeCast S512x1
      (multiReduction .maximumf [1] S512 (masked P0 P1 P3) 0xFF800000#32 reduces_S512x1024_S512 (.inl rfl) rfl)
      shapeCasts_S512_S512x1) broadcasts_S512x1_S512x1024 (ix2 p c) = rowMax (blkScore P0 P1 P3 p) :=
    (Cert.LibColumnBroadcast.broadcastTo_a1_ab_apply _ _ p c).trans
      ((Cert.LibColumnCast.shapeCast_a_a1_apply _ _ p 0).trans
        ((rowMax_apply _ _ _ _ p).trans
          (congrArg (fun f => (Finset.univ : Finset (Fin 1024)).fold max ⊥ f) (funext fun c' => masked_apply P0 P1 P3 p c'))))
  rw [pay2_eq]
  show Ideal.exp (masked P0 P1 P3 (ix2 p c) - broadcastTo S512x1024 (shapeCast S512x1
      (multiReduction .maximumf [1] S512 (masked P0 P1 P3) 0xFF800000#32 reduces_S512x1024_S512 (.inl rfl) rfl)
      shapeCasts_S512_S512x1) broadcasts_S512x1_S512x1024 (ix2 p c)) = _
  rw [hm, masked_apply]
  rfl

/-- The sum of the body's exponentials along row `p`: the row's denominator. -/
theorem den_apply (P0 : Vec Ideal S1x512x64 .f32) (P1 : Vec Ideal S1x1024x64 .f32) (P3 : Vec Ideal S1x512x1024 .i32)
    (p : Fin 512) :
    multiReduction .add [1] S512 (k0_pay2 P0 P1 P3) 0x00000000#32 reduces_S512x1024_S512 (.inl rfl) rfl (ix1 p)
      = rowDen (blkScore P0 P1 P3 p) :=
  (rowSum_apply _ _ _ _ p).trans (Finset.sum_congr rfl fun c _ => pay2_apply P0 P1 P3 p c)

/-- The stored block of weights at `(0, p, c)`: the row's normalized weight at `c`. -/
theorem E5_apply (P0 : Vec Ideal S1x512x64 .f32) (P1 : Vec Ideal S1x1024x64 .f32) (P3 : Vec Ideal S1x512x1024 .i32)
    (p : Fin 512) (c : Fin 1024) :
    Cert.KernelIdeal.Value.E5 P0 P1 P3 (ix3 (0 : Fin 1) p c) = attnRow (blkScore P0 P1 P3 p) c := by
  have e0 : Cert.KernelIdeal.Value.ix5_0 (ix3 (0 : Fin 1) p c) = ix2 p c :=
    funext fun a => Fin.ext (by match a with | ⟨0, _⟩ => rfl | ⟨1, _⟩ => rfl)
  have e1 : Cert.KernelIdeal.Value.ix5_1 (ix3 (0 : Fin 1) p c) = ix1 p :=
    funext fun a => Fin.ext (by match a with | ⟨0, _⟩ => rfl)
  show k0_pay2 P0 P1 P3 (Cert.KernelIdeal.Value.ix5_0 (ix3 (0 : Fin 1) p c)) * Ideal.div (Ideal.ofBits .f32 0x3F800000#32)
      (multiReduction .add [1] S512 (k0_pay2 P0 P1 P3) 0x00000000#32 reduces_S512x1024_S512 (.inl rfl) rfl
        (Cert.KernelIdeal.Value.ix5_1 (ix3 (0 : Fin 1) p c))) = _
  rw [e0, e1, pay2_apply, den_apply, Cert.Consts.ofBits_one, EReal.coe_one]
  rfl

/-- The second product at `(p, d)`: the exponentials of row `p` against feature `d` of the 1024 value rows. -/
theorem pv_apply (P0 : Vec Ideal S1x512x64 .f32) (P1 : Vec Ideal S1x1024x64 .f32) (P2 : Vec Ideal S1x1024x64 .f32)
    (P3 : Vec Ideal S1x512x1024 .i32) (p : Fin 512) (d : Fin 64) :
    FloatOps.matmul dot_S512x1024_S1024x64_S512x64_1_0_0_1_n_n none (k0_pay2 P0 P1 P3)
        (shapeCast S1024x64 P2 shapeCasts_S1x1024x64_S1024x64 : FVec Ideal S1024x64 .f32) (constant S512x64 .f32 0x00000000#32) (ix2 p d)
      = ∑ k : Fin 1024, rowExp (blkScore P0 P1 P3 p) k * P2 (ix3 (0 : Fin 1) k d) := by
  rw [Ideal.matmul_constant_zero_apply, ← Equiv.sum_comp (contrEquiv1 dot_S512x1024_S1024x64_S512x64_1_0_0_1_n_n 1024 rfl rfl).symm]
  refine Finset.sum_congr rfl fun k _ => ?_
  have hk := contrEquiv1_symm_val dot_S512x1024_S1024x64_S512x64_1_0_0_1_n_n 1024 rfl rfl k
  have el : dot_S512x1024_S1024x64_S512x64_1_0_0_1_n_n.lhsIdx (ix2 p d) ((contrEquiv1 dot_S512x1024_S1024x64_S512x64_1_0_0_1_n_n 1024 rfl rfl).symm k) = ix2 p k :=
    funext fun a => Fin.ext (by
      match a with
      | ⟨0, _⟩ => exact d2_lhs0 _ _
      | ⟨1, _⟩ => exact (dot_S512x1024_S1024x64_S512x64_1_0_0_1_n_n.lhsIdx_val_of_single rfl _ _).trans hk)
  have er : dot_S512x1024_S1024x64_S512x64_1_0_0_1_n_n.rhsIdx (ix2 p d) ((contrEquiv1 dot_S512x1024_S1024x64_S512x64_1_0_0_1_n_n 1024 rfl rfl).symm k) = ix2 k d :=
    funext fun a => Fin.ext (by
      match a with
      | ⟨0, _⟩ => exact (dot_S512x1024_S1024x64_S512x64_1_0_0_1_n_n.rhsIdx_val_of_single rfl _ _).trans hk
      | ⟨1, _⟩ => exact d2_rhs1 _ _)
  rw [el, er]
  exact congrArg₂ (· * ·) (pay2_apply P0 P1 P3 p k) (shapeCast_1ab_ab_apply P2 _ k d)

/-- The stored output block at `(0, p, d)`: feature `d` of the value rows combined with row `p`'s weights. -/
theorem E4_apply (P0 : Vec Ideal S1x512x64 .f32) (P1 : Vec Ideal S1x1024x64 .f32) (P2 : Vec Ideal S1x1024x64 .f32)
    (P3 : Vec Ideal S1x512x1024 .i32) (p : Fin 512) (d : Fin 64) :
    Cert.KernelIdeal.Value.E4 P0 P1 P2 P3 (ix3 (0 : Fin 1) p d)
      = outRow (blkScore P0 P1 P3 p) (fun c d' => P2 (ix3 (0 : Fin 1) c d')) d := by
  have e0 : Cert.KernelIdeal.Value.ix4_0 (ix3 (0 : Fin 1) p d) = ix2 p d :=
    funext fun a => Fin.ext (by match a with | ⟨0, _⟩ => rfl | ⟨1, _⟩ => rfl)
  have hinv : broadcastTo S512x64 (k0_pay3 P0 P1 P3) broadcasts_S512x1_S512x64 (ix2 p d)
      = Ideal.div 1 (rowDen (blkScore P0 P1 P3 p)) := by
    refine (Cert.LibColumnBroadcast.broadcastTo_a1_ab_apply _ _ p d).trans ?_
    show Ideal.div (Ideal.ofBits .f32 0x3F800000#32) (shapeCast S512x1
      (multiReduction .add [1] S512 (k0_pay2 P0 P1 P3) 0x00000000#32 reduces_S512x1024_S512 (.inl rfl) rfl)
      shapeCasts_S512_S512x1 (ix2 p (0 : Fin 1))) = _
    rw [Cert.LibColumnCast.shapeCast_a_a1_apply _ _ p 0, den_apply, Cert.Consts.ofBits_one, EReal.coe_one]
  show k0_pay5 P0 P1 P2 P3 (Cert.KernelIdeal.Value.ix4_0 (ix3 (0 : Fin 1) p d)) = _
  rw [e0]
  show FloatOps.matmul dot_S512x1024_S1024x64_S512x64_1_0_0_1_n_n none (k0_pay2 P0 P1 P3)
        (shapeCast S1024x64 P2 shapeCasts_S1x1024x64_S1024x64 : FVec Ideal S1024x64 .f32) (constant S512x64 .f32 0x00000000#32) (ix2 p d)
      * broadcastTo S512x64 (k0_pay3 P0 P1 P3) broadcasts_S512x1_S512x64 (ix2 p d) = _
  rw [pv_apply, hinv]
  rfl

end Cert.KernelRow

end
-- ==== Proof.Spec.lean ====
/-
  What the two result arrays hold, as functions of the four argument arrays, index by index.

  For batch `b`, query row `r` and key row `c` the score is the inner product over the 64 features of query row
  (b, r) with key row (b, c), times 1/8, less 10⁹ where the mask entry (b, r, c) is zero. The attention weights of row
  (b, r) are the softmax of its 1024 scores, and the output row (b, r) is the combination of the 1024 value rows of batch `b`
  weighted by them — both written the way the blocked program computes them: exponentials shifted by the row's largest score,
  scaled by the reciprocal of their sum at the end.
-/
import proofs.«142794_j50843822850611_2_alg».proof.Proof.Softmax
import proofs.«142794_j50843822850611_2_alg».proof.Proof.Consts
import Idealize.ShloMosaic.Lib.ValueIdx

noncomputable section

namespace Cert.Spec

open Idealize.ShloMosaic Idealize.ShloMosaic.ValueIdx Cert.Softmax

/-- Queries, keys, values and outputs: 64 batches of 1024 rows of 64 features. -/
abbrev SQ : Shape := ⟨3, ![64, 1024, 64]⟩
/-- Masks and attention weights: 64 batches of 1024 query rows by 1024 key rows. -/
abbrev SM : Shape := ⟨3, ![64, 1024, 1024]⟩

/-- The inner product of query row (b, r) with key row (b, c). -/
def dot (Q K : SQ.Idx → EReal) (b : Fin 64) (r c : Fin 1024) : EReal := ∑ d : Fin 64, Q (ix3 b r d) * K (ix3 b c d)

/-- The scores of query row (b, r): the inner products times 1/8, less 10⁹ where the mask entry is zero. -/
def score (Q K : SQ.Idx → EReal) (Mk : SM.Idx → BitVec 32) (b : Fin 64) (r : Fin 1024) : Fin 1024 → EReal := fun c =>
  Scalar.select (IntOp.cmpi .eq (Mk (ix3 b r c)) 0#32)
    (dot Q K b r c * Ideal.ofBits .f32 0x3E000000#32 - Ideal.ofBits .f32 0x4E6E6B28#32)
    (dot Q K b r c * Ideal.ofBits .f32 0x3E000000#32)

/-- The attention weights: entry (b, r, c) is the softmax of row (b, r)'s scores at c. -/
def attn (Q K : SQ.Idx → EReal) (Mk : SM.Idx → BitVec 32) : SM.Idx → EReal := fun i =>
  attnRow (score Q K Mk (i 0) (i 1)) (i 2)

/-- The output: entry (b, r, d) is feature d of the value rows of batch b combined with row (b, r)'s weights. -/
def out (Q K V : SQ.Idx → EReal) (Mk : SM.Idx → BitVec 32) : SQ.Idx → EReal := fun i =>
  outRow (score Q K Mk (i 0) (i 1)) (fun c d => V (ix3 (i 0) c d)) (i 2)

/-- An inner product of real rows is real. -/
theorem dot_real (Q K : SQ.Idx → EReal) (hQ : ∀ i, ∃ x : ℝ, Q i = (x : EReal)) (hK : ∀ i, ∃ x : ℝ, K i = (x : EReal))
    (b : Fin 64) (r c : Fin 1024) : ∃ x : ℝ, dot Q K b r c = (x : EReal) := by
  choose q hq using hQ
  choose k hk using hK
  refine ⟨∑ d : Fin 64, q (ix3 b r d) * k (ix3 b c d), ?_⟩
  rw [dot, coe_sum]
  exact Finset.sum_congr rfl fun d _ => by rw [hq, hk, EReal.coe_mul]

/-- On real queries and keys every score is real, whatever the mask. -/
theorem score_real (Q K : SQ.Idx → EReal) (Mk : SM.Idx → BitVec 32) (hQ : ∀ i, ∃ x : ℝ, Q i = (x : EReal))
    (hK : ∀ i, ∃ x : ℝ, K i = (x : EReal)) (b : Fin 64) (r c : Fin 1024) : ∃ x : ℝ, score Q K Mk b r c = (x : EReal) := by
  obtain ⟨x, hx⟩ := dot_real Q K hQ hK b r c
  unfold score Scalar.select
  rw [hx, Cert.Consts.ofBits_eighth, Cert.Consts.ofBits_big]
  split
  · exact ⟨x * (1 / 8) - 1000000000, by rw [EReal.coe_sub, EReal.coe_mul]⟩
  · exact ⟨x * (1 / 8), by rw [EReal.coe_mul]⟩

end Cert.Spec

end
-- ==== Proof.KernelArray.lean ====
/-
  From the kernel's blocks to its two whole result arrays.

  Grid point `t` is a batch `b` and a half `h` of that batch's 1024 query rows. Its query, mask and result blocks are rows
  `512 h … 512 h + 511` of batch `b`; its key and value blocks are all 1024 rows of batch `b`. So row `p` of the block's scores
  is row `512 h + p` of batch `b`'s scores, what the point writes back is the restriction of the whole-array attention
  weights and outputs to its blocks, and since the 128 blocks tile the arrays, the arrays end holding those functions.
-/
import proofs.«142794_j50843822850611_2_alg».proof.Proof.Gen.KernelIdeal.Value
import proofs.«142794_j50843822850611_2_alg».proof.Proof.KernelRow
import proofs.«142794_j50843822850611_2_alg».proof.Proof.Spec
import Idealize.ShloMosaic.Lib.Pipeline.Value
import Idealize.ShloMosaic.Lib.ValueIdx

noncomputable section

namespace Cert.KernelArray

open Cert.KernelIdeal Cert.KernelIdeal.Gen Idealize.ShloMosaic Idealize.ShloMosaic.TcCoe Idealize.SL.Sem
open Idealize.ShloMosaic.ValueIdx Cert.Softmax
open Idealize.ShloMosaic.Pipeline (Dat)

/-- The block rectangles start at the origin of their staging buffers. -/
theorem hz : (![0, 0, 0] : Fin 3 → Nat) = fun _ => 0 := funext fun a => by fin_cases a <;> rfl

/-- The printed index maps, decided over the 128 grid points: the result blocks are indexed by (batch, half, 0), the query and
    mask blocks move with them, and the key and value blocks are indexed by (batch, 0, 0). -/
theorem idx_facts : ∀ t : Fin cfg0.N,
    win0_5.index t (0 : Fin 3) < 64 ∧ win0_5.index t (1 : Fin 3) < 2 ∧ win0_5.index t (2 : Fin 3) = 0
    ∧ win0_4.index t (0 : Fin 3) = win0_5.index t (0 : Fin 3) ∧ win0_4.index t (1 : Fin 3) = win0_5.index t (1 : Fin 3)
    ∧ win0_4.index t (2 : Fin 3) = 0
    ∧ win0_0.index t (0 : Fin 3) = win0_5.index t (0 : Fin 3) ∧ win0_0.index t (1 : Fin 3) = win0_5.index t (1 : Fin 3)
    ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = win0_5.index t (1 : Fin 3)
    ∧ win0_3.index t (2 : Fin 3) = 0 :=
  (by decide +kernel : ∀ t : Fin grid0.N, _)

/-- Every (batch, half) is some grid point's. -/
theorem idx_onto : ∀ (q0 : Fin 64) (q1 : Fin 2), ∃ t : Fin cfg0.N, win0_5.index t = ![q0.val, q1.val, 0] :=
  (by decide +kernel : ∀ (q0 : Fin 64) (q1 : Fin 2), ∃ t : Fin grid0.N, win0_5.index t = ![q0.val, q1.val, 0])

/-- A block's scores are the whole-array scores of the row the block's row is, when the block's query row, key rows and mask
    row are those of that batch and row. -/
theorem blkScore_eq (Q K : Cert.Spec.SQ.Idx → EReal) (Mk : Cert.Spec.SM.Idx → BitVec 32)
    (P0 : Vec Ideal S1x512x64 .f32) (P1 : Vec Ideal S1x1024x64 .f32) (P3 : Vec Ideal S1x512x1024 .i32)
    (b : Fin 64) (r : Fin 1024) (p : Fin 512)
    (h0 : ∀ d : Fin 64, P0 (ix3 (0 : Fin 1) p d) = Q (ix3 b r d))
    (h1 : ∀ (k : Fin 1024) (d : Fin 64), P1 (ix3 (0 : Fin 1) k d) = K (ix3 b k d))
    (h3 : ∀ k : Fin 1024, (P3 (ix3 (0 : Fin 1) p k) : BitVec 32) = Mk (ix3 b r k)) :
    Cert.KernelRow.blkScore P0 P1 P3 p = Cert.Spec.score Q K Mk b r := by
  funext k
  unfold Cert.KernelRow.blkScore Cert.KernelRow.blkDot Cert.Spec.score Cert.Spec.dot
  rw [h3 k]
  have hd : (∑ d : Fin 64, P0 (ix3 (0 : Fin 1) p d) * P1 (ix3 (0 : Fin 1) k d)) = ∑ d : Fin 64, Q (ix3 b r d) * K (ix3 b k d) :=
    Finset.sum_congr rfl fun d _ => by rw [h0 d, h1 k d]
  rw [hd]

variable (m : (ℓ : Loc nD τ sig) → Buf (Elt Ideal) ℓ) (ρ : Dev nD → PrngReg)

section point

variable (c : Dev nD) (t : Fin cfg0.N)

/-- The batch of grid point `t`. -/
def bOf : Fin 64 := ⟨win0_5.index t (0 : Fin 3), (idx_facts t).1⟩

/-- The array row that row `p` of grid point `t`'s blocks is. -/
def rOf (p : Fin 512) : Fin 1024 :=
  ⟨win0_5.index t (1 : Fin 3) * 512 + p.val, by have := (idx_facts t).2.1; have := p.isLt; omega⟩

/-- The query block's row `p` is query row (batch, row). -/
theorem q_blk (p : Fin 512) (d : Fin 64) :
    iblk m c 0 t (ix3 (0 : Fin 1) p d) = V m c main_arg0 (ix3 (bOf t) (rOf t p) d) := by
  obtain ⟨-, -, -, -, -, -, e0, e1, e2, -⟩ := idx_facts t
  show V m c main_arg0 (((cfg0.win 0).blk t).view.emb (ix3 (0 : Fin 1) p d)) = _
  refine congrArg _ (funext fun a => Fin.ext ?_)
  match a with
  | ⟨0, _⟩ => show win0_0.index t (0 : Fin 3) * 1 + 1 * 0 = win0_5.index t (0 : Fin 3); omega
  | ⟨1, _⟩ => show win0_0.index t (1 : Fin 3) * 512 + 1 * p.val = win0_5.index t (1 : Fin 3) * 512 + p.val; omega
  | ⟨2, _⟩ => show win0_0.index t (2 : Fin 3) * 64 + 1 * d.val = d.val; omega

/-- The key block's row `k` is key row (batch, k). -/
theorem k_blk (k : Fin 1024) (d : Fin 64) :
    iblk m c 1 t (ix3 (0 : Fin 1) k d) = V m c main_arg1 (ix3 (bOf t) k d) := by
  obtain ⟨-, -, -, -, -, -, -, -, -, e0, e1, e2, -⟩ := idx_facts t
  show V m c main_arg1 (((cfg0.win 1).blk t).view.emb (ix3 (0 : Fin 1) k d)) = _
  refine congrArg _ (funext fun a => Fin.ext ?_)
  match a with
  | ⟨0, _⟩ => show win0_1.index t (0 : Fin 3) * 1 + 1 * 0 = win0_5.index t (0 : Fin 3); omega
  | ⟨1, _⟩ => show win0_1.index t (1 : Fin 3) * 1024 + 1 * k.val = k.val; omega
  | ⟨2, _⟩ => show win0_1.index t (2 : Fin 3) * 64 + 1 * d.val = d.val; omega

/-- The value block's row `k` is value row (batch, k). -/
theorem v_blk (k : Fin 1024) (d : Fin 64) :
    iblk m c 2 t (ix3 (0 : Fin 1) k d) = V m c main_arg2 (ix3 (bOf t) k d) := by
  obtain ⟨-, -, -, -, -, -, -, -, -, -, -, -, e0, e1, e2, -⟩ := idx_facts t
  show V m c main_arg2 (((cfg0.win 2).blk t).view.emb (ix3 (0 : Fin 1) k d)) = _
  refine congrArg _ (funext fun a => Fin.ext ?_)
  match a with
  | ⟨0, _⟩ => show win0_2.index t (0 : Fin 3) * 1 + 1 * 0 = win0_5.index t (0 : Fin 3); omega
  | ⟨1, _⟩ => show win0_2.index t (1 : Fin 3) * 1024 + 1 * k.val = k.val; omega
  | ⟨2, _⟩ => show win0_2.index t (2 : Fin 3) * 64 + 1 * d.val = d.val; omega

/-- The mask block's row `p` is mask row (batch, row). -/
theorem m_blk (p : Fin 512) (k : Fin 1024) :
    iblk m c 3 t (ix3 (0 : Fin 1) p k) = V m c main_arg3 (ix3 (bOf t) (rOf t p) k) := by
  obtain ⟨-, -, -, -, -, -, -, -, -, -, -, -, -, -, -, e0, e1, e2⟩ := idx_facts t
  show V m c main_arg3 (((cfg0.win 3).blk t).view.emb (ix3 (0 : Fin 1) p k)) = _
  refine congrArg _ (funext fun a => Fin.ext ?_)
  match a with
  | ⟨0, _⟩ => show win0_3.index t (0 : Fin 3) * 1 + 1 * 0 = win0_5.index t (0 : Fin 3); omega
  | ⟨1, _⟩ => show win0_3.index t (1 : Fin 3) * 512 + 1 * p.val = win0_5.index t (1 : Fin 3) * 512 + p.val; omega
  | ⟨2, _⟩ => show win0_3.index t (2 : Fin 3) * 1024 + 1 * k.val = k.val; omega

/-- Row `p` of the point's scores is the array's scores of (batch, row). -/
theorem score_blk (p : Fin 512) :
    Cert.KernelRow.blkScore (iblk m c 0 t) (iblk m c 1 t) (iblk m c 3 t) p
      = Cert.Spec.score (V m c main_arg0) (V m c main_arg1) (V m c main_arg3) (bOf t) (rOf t p) :=
  blkScore_eq (V m c main_arg0) (V m c main_arg1) (V m c main_arg3) (iblk m c 0 t) (iblk m c 1 t) (iblk m c 3 t)
    (bOf t) (rOf t p) p (fun d => q_blk m c t p d) (fun k d => k_blk m c t k d) (fun k => m_blk m c t p k)

/-- WHAT POINT `t` WRITES BACK to the weights array is block `t` of the whole-array attention weights. -/
theorem flushed5_eq :
    (dats m 0 c).flushed 5 t = ((cfg0.win 5).blk t).view.read (Elt Ideal)
      (Cert.Spec.attn (V m c main_arg0) (V m c main_arg1) (V m c main_arg3)) := by
  rw [Cert.KernelIdeal.Value.flushed5]
  unfold out0_5
  simp only [View.ld_unit_zero (S := S1x512x64) hz, View.ld_unit_zero (S := S1x1024x64) hz, View.ld_unit_zero (S := S1x512x1024) hz]
  funext y
  obtain ⟨u, p, k, rfl⟩ : ∃ (u : Fin 1) (p : Fin 512) (k : Fin 1024), y = (ix3 u p k : S1x512x1024.Idx) :=
    ⟨y 0, y 1, y 2, eq_ix3 (y : S1x512x1024.Idx)⟩
  obtain rfl : u = 0 := Fin.ext (by omega)
  obtain ⟨-, -, e2, -⟩ := idx_facts t
  have he : ((cfg0.win 5).blk t).view.emb (ix3 (0 : Fin 1) p k) = (ix3 (bOf t) (rOf t p) k : S64x1024x1024.Idx) :=
    funext fun a => Fin.ext (by
      match a with
      | ⟨0, _⟩ => show win0_5.index t (0 : Fin 3) * 1 + 1 * 0 = win0_5.index t (0 : Fin 3); omega
      | ⟨1, _⟩ => show win0_5.index t (1 : Fin 3) * 512 + 1 * p.val = win0_5.index t (1 : Fin 3) * 512 + p.val; omega
      | ⟨2, _⟩ => show win0_5.index t (2 : Fin 3) * 1024 + 1 * k.val = k.val; omega)
  show View.canon ([⟨r0_2, k0_pay4 (iblk m c 0 t) (iblk m c 1 t) (iblk m c 3 t)⟩] : List (View.Piece (Elt Ideal) S1x512x1024 .f32)) (ix3 (0 : Fin 1) p k)
    = Cert.Spec.attn (V m c main_arg0) (V m c main_arg1) (V m c main_arg3) (((cfg0.win 5).blk t).view.emb (ix3 (0 : Fin 1) p k))
  rw [he]
  refine (Cert.KernelIdeal.Value.canon5_eq (iblk m c 0 t) (iblk m c 1 t) (iblk m c 3 t) (ix3 (0 : Fin 1) p k)).trans ?_
  refine (Cert.KernelRow.E5_apply (iblk m c 0 t) (iblk m c 1 t) (iblk m c 3 t) p k).trans ?_
  exact congrArg (fun σ => attnRow σ k) (score_blk m c t p)

/-- WHAT POINT `t` WRITES BACK to the output array is block `t` of the whole-array outputs. -/
theorem flushed4_eq :
    (dats m 0 c).flushed 4 t = ((cfg0.win 4).blk t).view.read (Elt Ideal)
      (Cert.Spec.out (V m c main_arg0) (V m c main_arg1) (V m c main_arg2) (V m c main_arg3)) := by
  rw [Cert.KernelIdeal.Value.flushed4]
  unfold out0_4
  simp only [View.ld_unit_zero (S := S1x512x64) hz, View.ld_unit_zero (S := S1x1024x64) hz, View.ld_unit_zero (S := S1x512x1024) hz]
  funext y
  obtain ⟨u, p, d, rfl⟩ : ∃ (u : Fin 1) (p : Fin 512) (d : Fin 64), y = (ix3 u p d : S1x512x64.Idx) :=
    ⟨y 0, y 1, y 2, eq_ix3 (y : S1x512x64.Idx)⟩
  obtain rfl : u = 0 := Fin.ext (by omega)
  obtain ⟨-, -, -, e0, e1, e2, -⟩ := idx_facts t
  have he : ((cfg0.win 4).blk t).view.emb (ix3 (0 : Fin 1) p d) = (ix3 (bOf t) (rOf t p) d : S64x1024x64.Idx) :=
    funext fun a => Fin.ext (by
      match a with
      | ⟨0, _⟩ => show win0_4.index t (0 : Fin 3) * 1 + 1 * 0 = win0_5.index t (0 : Fin 3); omega
      | ⟨1, _⟩ => show win0_4.index t (1 : Fin 3) * 512 + 1 * p.val = win0_5.index t (1 : Fin 3) * 512 + p.val; omega
      | ⟨2, _⟩ => show win0_4.index t (2 : Fin 3) * 64 + 1 * d.val = d.val; omega)
  show View.canon ([⟨r0_0, k0_pay1 (k0_pay5 (iblk m c 0 t) (iblk m c 1 t) (iblk m c 2 t) (iblk m c 3 t))⟩] : List (View.Piece (Elt Ideal) S1x512x64 .f32)) (ix3 (0 : Fin 1) p d)
    = Cert.Spec.out (V m c main_arg0) (V m c main_arg1) (V m c main_arg2) (V m c main_arg3)
        (((cfg0.win 4).blk t).view.emb (ix3 (0 : Fin 1) p d))
  rw [he]
  refine (Cert.KernelIdeal.Value.canon4_eq (iblk m c 0 t) (iblk m c 1 t) (iblk m c 2 t) (iblk m c 3 t) (ix3 (0 : Fin 1) p d)).trans ?_
  refine (Cert.KernelRow.E4_apply (iblk m c 0 t) (iblk m c 1 t) (iblk m c 2 t) (iblk m c 3 t) p d).trans ?_
  have hv : (fun (k : Fin 1024) (d' : Fin 64) => iblk m c 2 t (ix3 (0 : Fin 1) k d'))
      = fun (k : Fin 1024) (d' : Fin 64) => V m c main_arg2 (ix3 (bOf t) k d') :=
    funext fun k => funext fun d' => v_blk m c t k d'
  show outRow (Cert.KernelRow.blkScore (iblk m c 0 t) (iblk m c 1 t) (iblk m c 3 t) p)
      (fun (k : Fin 1024) (d' : Fin 64) => iblk m c 2 t (ix3 (0 : Fin 1) k d')) d
    = outRow (Cert.Spec.score (V m c main_arg0) (V m c main_arg1) (V m c main_arg3) (bOf t) (rOf t p))
      (fun (k : Fin 1024) (d' : Fin 64) => V m c main_arg2 (ix3 (bOf t) k d')) d
  rw [hv, score_blk m c t p]

end point

/-- An index of the weights array is in point `t`'s block iff each coordinate is in the block's range on its axis. -/
theorem mem_blk5 (t : Fin cfg0.N) (i : S64x1024x1024.Idx) :
    i ∈ ((cfg0.win 5).blk t).view.set ↔ ∀ a : Fin 3, win0_5.index t a * S1x512x1024.size a ≤ (i a).val
      ∧ (i a).val < win0_5.index t a * S1x512x1024.size a + S1x512x1024.size a := by
  show i ∈ ((View.whole main_v0_1).slice (win0_5.rect t)).set ↔ _
  rw [View.set_slice_whole, Rect.mem_set_unit]
  exact Iff.rfl

/-- An index of the output array is in point `t`'s block iff each coordinate is in the block's range on its axis. -/
theorem mem_blk4 (t : Fin cfg0.N) (i : S64x1024x64.Idx) :
    i ∈ ((cfg0.win 4).blk t).view.set ↔ ∀ a : Fin 3, win0_4.index t a * S1x512x64.size a ≤ (i a).val
      ∧ (i a).val < win0_4.index t a * S1x512x64.size a + S1x512x64.size a := by
  show i ∈ ((View.whole main_v0_0).slice (win0_4.rect t)).set ↔ _
  rw [View.set_slice_whole, Rect.mem_set_unit]
  exact Iff.rfl

/-- The 128 weight blocks tile their array: index (b, r, k) is in the block of point (b, r / 512). -/
theorem cover5 (i : S64x1024x1024.Idx) :
    ∃ t : Fin cfg0.N, (cfg0.win 5).flush t = true ∧ i ∈ ((cfg0.win 5).blk t).view.set := by
  have hi0 : (i 0).val < 64 := (i 0).isLt
  have hi1 : (i 1).val < 1024 := (i 1).isLt
  have hi2 : (i 2).val < 1024 := (i 2).isLt
  obtain ⟨t, ht⟩ := idx_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 1024 ≤ (i 2).val ∧ (i 2).val < win0_5.index t (2 : Fin 3) * 1024 + 1024; omega

/-- The 128 output blocks tile their array likewise. -/
theorem cover4 (i : S64x1024x64.Idx) :
    ∃ t : Fin cfg0.N, (cfg0.win 4).flush t = true ∧ i ∈ ((cfg0.win 4).blk t).view.set := by
  have hi0 : (i 0).val < 64 := (i 0).isLt
  have hi1 : (i 1).val < 1024 := (i 1).isLt
  have hi2 : (i 2).val < 64 := (i 2).isLt
  obtain ⟨t, ht⟩ := idx_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  obtain ⟨-, -, -, e0, e1, e2, -⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 64 ≤ (i 2).val ∧ (i 2).val < win0_4.index t (2 : Fin 3) * 64 + 64; omega

/-- The weights array after the run is the whole-array attention weights of the argument arrays. -/
theorem final5 (c : Dev nD) : (dats m 0 c).arrAt 5 cfg0.N
    = Cert.Spec.attn (m ((c : Thread nD τ).loc main_arg0)) (m ((c : Thread nD τ).loc main_arg1)) (m ((c : Thread nD τ).loc main_arg3)) :=
  (dats m 0 c).arrAt_eq_of_cover 5 _ (fun t _ => flushed5_eq m c t) cover5

/-- The output array after the run is the whole-array outputs of the argument arrays. -/
theorem final4 (c : Dev nD) : (dats m 0 c).arrAt 4 cfg0.N
    = Cert.Spec.out (m ((c : Thread nD τ).loc main_arg0)) (m ((c : Thread nD τ).loc main_arg1)) (m ((c : Thread nD τ).loc main_arg2))
        (m ((c : Thread nD τ).loc main_arg3)) :=
  (dats m 0 c).arrAt_eq_of_cover 4 _ (fun t _ => flushed4_eq m c t) cover4

/-- The kernel's run re-posted: each result array at its function of the argument arrays, the arguments unchanged. -/
theorem run : θ_run defs (onTc (τ := τ) (main (F := Ideal))) ⟨m, fun _ => 0, ρ⟩ fun r => ∀ c : Dev nD,
      r.2.mem ((c : Thread nD τ).loc main_v0_0) = Cert.Spec.out (m ((c : Thread nD τ).loc main_arg0)) (m ((c : Thread nD τ).loc main_arg1))
        (m ((c : Thread nD τ).loc main_arg2)) (m ((c : Thread nD τ).loc main_arg3))
      ∧ r.2.mem ((c : Thread nD τ).loc main_v0_1) = Cert.Spec.attn (m ((c : Thread nD τ).loc main_arg0)) (m ((c : Thread nD τ).loc main_arg1))
        (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Cert.KernelIdeal.Value.run_blocks m ρ)

end Cert.KernelArray

end
-- ==== Proof.RefValue.lean ====
/-
  The reference program's two results, index by index, are the specification's two arrays.

  The reference forms the scores as the inner products divided by √64 plus −10⁹ times one minus the mask entry, takes each
  row's largest score from −∞, shifts and exponentiates, sums the exponentials of the row from zero, divides each
  exponential by its row's sum — the attention weights — and contracts the weights with the values. Read at an index,
  stage by stage: the score is the specification's score (the two spellings of the masked, scaled score agree on a mask of
  zeros and ones); the reduction by maximum over the last axis is the fold of max over that axis's 1024 coordinates, the
  row's largest entry; the exponential is the row's shifted exponential; the sum is the row's sum; the quotient is the
  normalized weight (on real scores dividing by the sum is scaling by its reciprocal); and the contraction with the values is
  the weighted combination (on real values, by distributivity).
-/
import proofs.«142794_j50843822850611_2_alg».proof.Proof.Gen.ReferenceIdeal.Read
import proofs.«142794_j50843822850611_2_alg».proof.Proof.Spec
import Idealize.ShloMosaic.Lib.ValueIdx
import Idealize.ShloMosaic.Lib.IdealHost
import Idealize.ShloMosaic.PureOps.Ideal.Laws
import Idealize.ShloMosaic.PureOps.Reduce

noncomputable section

namespace Cert.RefValue

open Idealize.ShloMosaic Idealize.ShloMosaic.ValueIdx Cert.ReferenceIdeal Cert.ReferenceIdeal.Gen Cert.ReferenceIdeal.Read Cert.Spec
  Cert.Softmax

/-- The first contraction at (b, r, c) is the inner product of query row (b, r) with key row (b, c). -/
theorem v1_apply (Q K : SQ.Idx → EReal) (b : Fin 64) (r c : Fin 1024) :
    val_main_v1 (F := Ideal) Q K (ix3 b r c) = dot Q K b r c := by
  rw [val_main_v1_apply]
  unfold dot
  refine Finset.sum_congr rfl fun d _ => ?_
  have el : lidx_main_v1 (ix3 b r c) d = ix3 b r d :=
    funext fun a => Fin.ext (by match a with | ⟨0, _⟩ => rfl | ⟨1, _⟩ => rfl | ⟨2, _⟩ => rfl)
  have er : ridx_main_v1 (ix3 b r c) d = ix3 b c d :=
    funext fun a => Fin.ext (by match a with | ⟨0, _⟩ => rfl | ⟨1, _⟩ => rfl | ⟨2, _⟩ => rfl)
  rw [el, er]

/-- The reference's score at (b, r, c) — the inner product over √64 plus −10⁹ times one minus the mask entry — is the
    specification's score, on a mask of zeros and ones. -/
theorem v9_apply (Q K : SQ.Idx → EReal) (Mk : SM.Idx → BitVec 32) (hMk : ∀ i, Mk i = 0#32 ∨ Mk i = 1#32)
    (b : Fin 64) (r c : Fin 1024) :
    val_main_v9 (F := Ideal) Q K Mk (ix3 b r c) = score Q K Mk b r c := by
  rw [val_main_v9_apply, val_main_v3_apply, val_main_v8_apply, val_main_v7_apply, val_main_cst_1_apply,
    val_main_v6_apply, val_main_v5_apply, val_main_cst_0_apply, val_main_v4_apply, val_main_v2_apply,
    val_main_v0_apply, val_main_cst_apply, v1_apply]
  exact (Cert.Consts.score_eq _ _ (hMk _)).symm

/-- The reduction by maximum over the last axis, at row (b, r), is the row's largest score from −∞: a reduction with a
    commutative, associative body over one axis is the fold over that axis's coordinates from the initial value. -/
theorem v10_apply (Q K : SQ.Idx → EReal) (Mk : SM.Idx → BitVec 32) (hMk : ∀ i, Mk i = 0#32 ∨ Mk i = 1#32)
    (b : Fin 64) (r : Fin 1024) :
    val_main_v10 (F := Ideal) Q K Mk (ix2 b r) = rowMax (score Q K Mk b r) := by
  have h : S64x1024x1024.Reduces [2] S64x1024 := by decide
  have hpt : ∀ k : Fin 1024, val_main_v9 (F := Ideal) Q K Mk (h.lift (ix2 b r) k) = score Q K Mk b r k := fun k => by
    have e : h.lift (ix2 b r) k = ix3 b r k :=
      funext fun a => Fin.ext (by match a with | ⟨0, _⟩ => rfl | ⟨1, _⟩ => rfl | ⟨2, _⟩ => rfl)
    rw [e, v9_apply Q K Mk hMk]
  have hfun : (val_main_v9 (F := Ideal) Q K Mk ∘ h.lift (ix2 b r)) = score Q K Mk b r := funext hpt
  unfold val_main_v10
  rw [Host.reduce_eq_fold_single FloatOps.maximumf _ _ reducesTo_S64x1024x1024_S64x1024_d2 h h_S_, hfun,
    val_main_cst_2_apply, Ideal.ofBits_def, Cert.Consts.ofBits_neginf]
  rfl

/-- The row's largest score, broadcast back over the last axis: the maximum of −∞ and the reduction is the reduction. -/
theorem v14_apply (Q K : SQ.Idx → EReal) (Mk : SM.Idx → BitVec 32) (hMk : ∀ i, Mk i = 0#32 ∨ Mk i = 1#32)
    (b : Fin 64) (r c : Fin 1024) :
    val_main_v14 (F := Ideal) Q K Mk (ix3 b r c) = rowMax (score Q K Mk b r) := by
  have e : idx_main_v13 (idx_main_v14 (ix3 b r c)) = ix2 b r :=
    funext fun a => Fin.ext (by match a with | ⟨0, _⟩ => rfl | ⟨1, _⟩ => rfl)
  rw [val_main_v14_apply, val_main_v13_apply, e, val_main_v12_apply, val_main_v11_apply, val_main_cst_3_apply,
    v10_apply Q K Mk hMk, Ideal.ofBits_def, Cert.Consts.ofBits_neginf, Ideal.maximumf_def]
  exact max_bot_left _

/-- The exponential stage at (b, r, c) is the row's shifted exponential. -/
theorem v16_apply (Q K : SQ.Idx → EReal) (Mk : SM.Idx → BitVec 32) (hMk : ∀ i, Mk i = 0#32 ∨ Mk i = 1#32)
    (b : Fin 64) (r c : Fin 1024) :
    val_main_v16 (F := Ideal) Q K Mk (ix3 b r c) = rowExp (score Q K Mk b r) c := by
  rw [val_main_v16_apply, val_main_v15_apply, v9_apply Q K Mk hMk, v14_apply Q K Mk hMk]
  rfl

/-- The sum of the exponentials over the last axis from zero, at row (b, r), is the row's sum. -/
theorem v17_apply (Q K : SQ.Idx → EReal) (Mk : SM.Idx → BitVec 32) (hMk : ∀ i, Mk i = 0#32 ∨ Mk i = 1#32)
    (b : Fin 64) (r : Fin 1024) :
    val_main_v17 (F := Ideal) Q K Mk (ix2 b r) = rowDen (score Q K Mk b r) := by
  rw [val_main_v17_apply, val_main_cst_4_apply, Ideal.ofBits_def, Ideal.ofBits_zero_f32, zero_add]
  unfold rowDen
  refine Finset.sum_congr rfl fun k _ => ?_
  have e : idx_main_v17 (ix2 b r) k = ix3 b r k :=
    funext fun a => Fin.ext (by match a with | ⟨0, _⟩ => rfl | ⟨1, _⟩ => rfl | ⟨2, _⟩ => rfl)
  rw [e, v16_apply Q K Mk hMk]

/-- The quotient stage at (b, r, c): the row's exponential divided by the row's sum. -/
theorem v20_apply_div (Q K : SQ.Idx → EReal) (Mk : SM.Idx → BitVec 32) (hMk : ∀ i, Mk i = 0#32 ∨ Mk i = 1#32)
    (b : Fin 64) (r c : Fin 1024) :
    val_main_v20 (F := Ideal) Q K Mk (ix3 b r c)
      = Ideal.div (rowExp (score Q K Mk b r) c) (rowDen (score Q K Mk b r)) := by
  have e : idx_main_v18 (idx_main_v19 (ix3 b r c)) = ix2 b r :=
    funext fun a => Fin.ext (by match a with | ⟨0, _⟩ => rfl | ⟨1, _⟩ => rfl)
  rw [val_main_v20_apply, val_main_v19_apply, val_main_v18_apply, e, v16_apply Q K Mk hMk, v17_apply Q K Mk hMk,
    Ideal.hostDivf_def]

/-- The reference's attention weights are the specification's: on real queries and keys every score is real, and then
    dividing an exponential by the row's sum is scaling it by the reciprocal of the sum. -/
theorem ref_attn (Q K : SQ.Idx → EReal) (Mk : SM.Idx → BitVec 32) (hQ : ∀ i, ∃ x : ℝ, Q i = (x : EReal))
    (hK : ∀ i, ∃ x : ℝ, K i = (x : EReal)) (hMk : ∀ i, Mk i = 0#32 ∨ Mk i = 1#32) :
    val_main_v20 (F := Ideal) Q K Mk = attn Q K Mk := by
  funext i
  obtain ⟨b, r, c, rfl⟩ : ∃ b r c, i = ix3 b r c := ⟨i 0, i 1, i 2, eq_ix3 i⟩
  rw [v20_apply_div Q K Mk hMk]
  exact (attnRow_eq_div (score Q K Mk b r) (score_real Q K Mk hQ hK b r) (by norm_num) c).symm

/-- The reference's output is the specification's: the contraction of the divided weights with the values of the batch is,
    on real scores and real values, the weighted combination scaled by the reciprocal of the sum afterwards. -/
theorem ref_out (Q K V : SQ.Idx → EReal) (Mk : SM.Idx → BitVec 32) (hQ : ∀ i, ∃ x : ℝ, Q i = (x : EReal))
    (hK : ∀ i, ∃ x : ℝ, K i = (x : EReal)) (hV : ∀ i, ∃ x : ℝ, V i = (x : EReal))
    (hMk : ∀ i, Mk i = 0#32 ∨ Mk i = 1#32) :
    val_main_v21 (F := Ideal) Q K V Mk = out Q K V Mk := by
  funext i
  obtain ⟨b, r, d, rfl⟩ : ∃ b r d, i = ix3 b r d := ⟨i 0, i 1, i 2, eq_ix3 i⟩
  rw [val_main_v21_apply]
  refine Eq.trans (Finset.sum_congr rfl fun k _ => ?_)
    (outRow_eq_sum_div (score Q K Mk b r) (score_real Q K Mk hQ hK b r) (by norm_num)
      (fun c j => V (ix3 b c j)) (fun c j => hV _) d).symm
  have el : lidx_main_v21 (ix3 b r d) k = ix3 b r k :=
    funext fun a => Fin.ext (by match a with | ⟨0, _⟩ => rfl | ⟨1, _⟩ => rfl | ⟨2, _⟩ => rfl)
  have er : ridx_main_v21 (ix3 b r d) k = ix3 b k d :=
    funext fun a => Fin.ext (by match a with | ⟨0, _⟩ => rfl | ⟨1, _⟩ => rfl | ⟨2, _⟩ => rfl)
  rw [el, er, v20_apply_div Q K Mk hMk]

end Cert.RefValue

end
-- ==== Proof.PreDecode.lean ====
/-
  What the certificate's precondition says about the inputs, element by element.

  The precondition is a printed predicate: the conjunction of "every |q| < +∞", "every |k| < +∞", "every |v| < +∞"
  and "every mask entry is 0 or 1", each universal statement a reduction by `and` of an array of one-bit words over
  all axes, from the constant 1. When the result is the word 1, every conjunct is 1, so every element of every reduced
  array is 1; and an element being 1 says, for a float entry, that its absolute value is strictly below +∞ on the
  extended reals, which leaves only the real numbers, and for a mask entry, that one of its two comparisons holds.
-/
import proofs.«142794_j50843822850611_2_alg».proof.Pre_finite_inputs
import Idealize.ShloMosaic.PureOps.Ideal
import Idealize.ShloMosaic.PureOps.Ideal.Laws
import Idealize.ShloMosaic.Lib.ValueIdx
import Idealize.ShloMosaic.Lib.ReduceAll
import Idealize.ShloMosaic.Lib.Affine

namespace Cert.PreDecode

open Idealize.ShloMosaic

variable [Cert.Pre_finite_inputs.Facts]

/-- The shape with no axes has exactly one index: two indices are functions out of the empty type. -/
instance : Subsingleton Cert.Pre_finite_inputs.S_.Idx := ⟨fun a b => funext fun d => d.elim0⟩

/-- The single-precision pattern `0x7F800000` (exponent all ones, significand zero, sign clear) denotes +∞. -/
theorem ofBits_inf : Ideal.ofBits .f32 0x7F800000#32 = ⊤ := by simp [Ideal.ofBits, Ideal.ieee]

/-- An extended real whose absolute value `max x (-x)` is strictly below +∞ is a real number: at +∞ the maximum is
    +∞ itself, and at -∞ its negation is. -/
theorem real_of_abs_lt_top (x : EReal) (h : max x (-x) < ⊤) : ∃ r : ℝ, x = (r : EReal) := by
  induction x using EReal.rec with
  | bot => simp at h
  | coe r => exact ⟨r, rfl⟩
  | top => simp at h

/-- One element of a finiteness test: when the comparison "|x| is ordered-less-than the pattern of +∞" is the word 1,
    `x` is a real number. -/
theorem real_of_cmp (x : Ideal .f32)
    (h : Ideal.cmp .olt (max (x : EReal) (-(x : EReal))) (Ideal.ofBits .f32 0x7F800000#32) = 1#1) :
    ∃ r : ℝ, x = (r : EReal) := by
  rw [ofBits_inf] at h
  refine real_of_abs_lt_top x ?_
  by_contra hn
  simp [Ideal.cmp, hn] at h

/-- The precondition, opened: its four conjuncts, each read at every index of the array it reduces. -/
theorem decode (q k v : FVec Ideal Cert.Pre_finite_inputs.S64x1024x64 .f32)
    (mk : IVec Cert.Pre_finite_inputs.S64x1024x1024 32)
    (h : Cert.Pre_finite_inputs.fn (F := Ideal) q k v mk = fun _ => 1#1) :
    (∀ i, Ideal.cmp .olt (max (q i : EReal) (-(q i : EReal))) (Ideal.ofBits .f32 0x7F800000#32) = 1#1)
    ∧ (∀ i, Ideal.cmp .olt (max (k i : EReal) (-(k i : EReal))) (Ideal.ofBits .f32 0x7F800000#32) = 1#1)
    ∧ (∀ i, Ideal.cmp .olt (max (v i : EReal) (-(v i : EReal))) (Ideal.ofBits .f32 0x7F800000#32) = 1#1)
    ∧ (∀ i, IntOp.ori (IntOp.cmpi .eq (mk i) 0#32) (IntOp.cmpi .eq (mk i) 1#32) = 1#1) := by
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨fun i => Host.reduce_andi_all _ _ _ _ _ h1 i, fun i => Host.reduce_andi_all _ _ _ _ _ h2 i,
    fun i => Host.reduce_andi_all _ _ _ _ _ h3 i, fun i => Host.reduce_andi_all _ _ _ _ _ h4 i⟩

variable (q k v : FVec Ideal Cert.Pre_finite_inputs.S64x1024x64 .f32)
  (mk : IVec Cert.Pre_finite_inputs.S64x1024x1024 32)
  (h : Cert.Pre_finite_inputs.fn (F := Ideal) q k v mk = fun _ => 1#1)
include h

/-- Under the precondition every entry of the first input is a real number: its absolute value is below +∞. -/
theorem real_q (i : Cert.Pre_finite_inputs.S64x1024x64.Idx) : ∃ x : ℝ, q i = (x : EReal) :=
  real_of_cmp (q i) ((decode q k v mk h).1 i)

/-- Under the precondition every entry of the second input is a real number: its absolute value is below +∞. -/
theorem real_k (i : Cert.Pre_finite_inputs.S64x1024x64.Idx) : ∃ x : ℝ, k i = (x : EReal) :=
  real_of_cmp (k i) ((decode q k v mk h).2.1 i)

/-- Under the precondition every entry of the third input is a real number: its absolute value is below +∞. -/
theorem real_v (i : Cert.Pre_finite_inputs.S64x1024x64.Idx) : ∃ x : ℝ, v i = (x : EReal) :=
  real_of_cmp (v i) ((decode q k v mk h).2.2.1 i)

/-- Under the precondition every entry of the mask is the word 0 or the word 1: the disjunction of the two equality
    tests is 1, so one of them is, and an equality test that is 1 says its two words are equal. -/
theorem mask01 (i : Cert.Pre_finite_inputs.S64x1024x1024.Idx) : mk i = 0#32 ∨ mk i = 1#32 :=
  (IntOp.ori_eq_one.1 ((decode q k v mk h).2.2.2 i)).imp IntOp.cmpi_eq.1 IntOp.cmpi_eq.1

end Cert.PreDecode
-- ==== Proof.lean ====
/-
  Masked scaled-dot-product attention, blocked over (batch, half of the query rows), against the whole-array reference.

  For 64 batches of 1024 query rows, 1024 key rows and 1024 value rows of 64 features and an integer mask, both programs
  return the attention output and the attention weights. The score of query row r against key row c is their inner product
  scaled by 1/√64 = 1/8, with 10⁹ subtracted where the mask entry is zero; the weights are the softmax of each row of scores
  and the output is the weights applied to the value rows.

  The blocked program tests the mask entry against zero and subtracts 10⁹ in that case; the reference adds −10⁹ times one minus
  the mask entry. These agree exactly when every mask entry is 0 or 1, which the precondition states beside the finiteness of
  the three float inputs (at a mask entry 2 the reference's score is raised by 10⁹ and the two softmax rows differ). The blocked
  program scales the exponentials, and their product with the value rows, by the reciprocal of the row's sum at the end; the
  reference divides the exponentials by the sum first. On finite inputs every score is a real number, so the row's largest
  score is real, every exponential is a positive real, the sum is a positive real, and the two orders agree by distributivity
  of the product over a finite sum of reals.

  The proof: `Spec` states the two result arrays as functions of the four argument arrays; `KernelRow` reads one block of the
  blocked program row by row as those functions; `KernelArray` shows each grid point writes back the restriction of them to
  its blocks and that the blocks tile the arrays; `RefValue` reads the reference, operation by operation, as the same functions
  under the precondition, which `PreDecode` decodes element by element; `Softmax` holds the two laws on the extended reals.
  The frames of the two blocked programs and the run of the reference are the generated ones.
-/
import proofs.«142794_j50843822850611_2_alg».proof.Defs
import proofs.«142794_j50843822850611_2_alg».proof.Proof.Gen.Kernel
import proofs.«142794_j50843822850611_2_alg».proof.Proof.Gen.Kernel.Skeleton
import proofs.«142794_j50843822850611_2_alg».proof.Proof.Gen.Kernel.Launch
import proofs.«142794_j50843822850611_2_alg».proof.Proof.Gen.Kernel.Points
import proofs.«142794_j50843822850611_2_alg».proof.Proof.Gen.Kernel.Frame
import proofs.«142794_j50843822850611_2_alg».proof.Proof.Gen.KernelIdeal
import proofs.«142794_j50843822850611_2_alg».proof.Proof.Gen.KernelIdeal.Skeleton
import proofs.«142794_j50843822850611_2_alg».proof.Proof.Gen.KernelIdeal.Launch
import proofs.«142794_j50843822850611_2_alg».proof.Proof.Gen.KernelIdeal.Points
import proofs.«142794_j50843822850611_2_alg».proof.Proof.Gen.KernelIdeal.Frame
import proofs.«142794_j50843822850611_2_alg».proof.Proof.Gen.ReferenceIdeal
import proofs.«142794_j50843822850611_2_alg».proof.Proof.Gen.Pre_finite_inputs
import proofs.«142794_j50843822850611_2_alg».proof.Proof.Gen.KernelIdeal.Value
import proofs.«142794_j50843822850611_2_alg».proof.Proof.Gen.ReferenceIdeal.Run
import proofs.«142794_j50843822850611_2_alg».proof.Proof.Gen.ReferenceIdeal.Read
import proofs.«142794_j50843822850611_2_alg».proof.Proof.KernelArray
import proofs.«142794_j50843822850611_2_alg».proof.Proof.RefValue
import proofs.«142794_j50843822850611_2_alg».proof.Proof.PreDecode
import Idealize.ShloMosaic.Adequacy
import Idealize.ShloMosaic.Init

noncomputable section

namespace Cert.Proof

open Idealize.ShloMosaic Idealize.ShloMosaic.TcCoe Idealize.SL.Sem

/-- The two programs end with the same two arrays: the blocked program's result arrays are the specification's functions
    of the argument arrays, and on finite floats and a 0/1 mask so are the reference's. -/
theorem algebraic : Cert.algebraic_KernelIdeal_ReferenceIdeal := by
  intro m ρ m' ρ' hpre hagree
  refine ⟨_, _, Cert.KernelArray.run m ρ, ?_⟩
  refine (θ_run Cert.ReferenceIdeal.defs _ _).mono (fun r h c => ?_) (Cert.ReferenceIdeal.Value.run (F := Ideal) m' ρ')
  have hp := hpre c
  have hQ := Cert.PreDecode.real_q _ _ _ _ hp
  have hK := Cert.PreDecode.real_k _ _ _ _ hp
  have hV := Cert.PreDecode.real_v _ _ _ _ hp
  have hMk := Cert.PreDecode.mask01 _ _ _ _ hp
  refine ⟨?_, ?_, (h c).2.2⟩
  · refine ((h c).1.trans (Cert.ReferenceIdeal.Read.val_main_v21_eq _ _ _ _)).trans ?_
    rw [(hagree c).1, (hagree c).2.1, (hagree c).2.2.1, (hagree c).2.2.2]
    exact Cert.RefValue.ref_out _ _ _ _ hQ hK hV hMk
  · refine ((h c).2.1.trans (Cert.ReferenceIdeal.Read.val_main_v20_eq _ _ _)).trans ?_
    rw [(hagree c).1, (hagree c).2.1, (hagree c).2.2.2]
    exact Cert.RefValue.ref_attn _ _ _ hQ hK hMk

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2)
    (Cert.ReferenceIdeal.Value.run (F := Ideal) m ρ),
  trivial,
  algebraic⟩

end Cert.Proof

end
